-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x133 : Shape := ⟨2, ![50000, 133]⟩
abbrev S800000x14 : Shape := ⟨2, ![800000, 14]⟩
abbrev S128x147 : Shape := ⟨2, ![128, 147]⟩
abbrev S128x128 : Shape := ⟨2, ![128, 128]⟩
abbrev S128x261 : Shape := ⟨2, ![128, 261]⟩
abbrev S800000 : Shape := ⟨1, ![800000]⟩
abbrev S_ : Shape := ⟨0, ![]⟩

class Facts : Prop where
  bcast_S_S50000x133 : S_.BroadcastsInDim S50000x133 (![] : Fin 0 → Fin S50000x133.rank)
  reducesTo_S50000x133_S_d0_1 : S50000x133.ReducesTo [0, 1] S_
  h_S_ : 0 < S_.numel
  bcast_S_S800000x14 : S_.BroadcastsInDim S800000x14 (![] : Fin 0 → Fin S800000x14.rank)
  reducesTo_S800000x14_S_d0_1 : S800000x14.ReducesTo [0, 1] S_
  bcast_S_S128x147 : S_.BroadcastsInDim S128x147 (![] : Fin 0 → Fin S128x147.rank)
  reducesTo_S128x147_S_d0_1 : S128x147.ReducesTo [0, 1] S_
  bcast_S_S128x128 : S_.BroadcastsInDim S128x128 (![] : Fin 0 → Fin S128x128.rank)
  reducesTo_S128x128_S_d0_1 : S128x128.ReducesTo [0, 1] S_
  bcast_S_S128x261 : S_.BroadcastsInDim S128x261 (![] : Fin 0 → Fin S128x261.rank)
  reducesTo_S128x261_S_d0_1 : S128x261.ReducesTo [0, 1] S_

variable [Facts]

def fn_part1 {F : FTy → Type} [FloatOps F] (main_arg4 : FVec F S128x261 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x261 .f32 := Host.absf main_arg4
  let main_cst_6 : FVec F S_ .f32 := constant S_ .f32 0x7F800000#32
  let main_v20 : FVec F S128x261 .f32 := broadcastInDim S128x261 ![] bcast_S_S128x261 main_cst_6
  let main_v21 : IVec S128x261 1 := cmpf .olt main_v19 main_v20
  let main_c_7 : IVec S_ 1 := constantI S_ 1 1#1
  let main_v22 : IVec S_ 1 := (fun x v => Host.reduce IntOp.andi x v reducesTo_S128x261_S_d0_1 h_S_) main_v21 main_c_7
  let main_v23 : IVec S_ 1 := andi main_v18 main_v22
  main_v23

def fn {F : FTy → Type} [FloatOps F] (main_arg0 : FVec F S50000x133 .f32) (main_arg1 : FVec F S800000x14 .f32) (main_arg2 : FVec F S128x147 .f32) (main_arg3 : FVec F S128x128 .f32) (main_arg4 : FVec F S128x261 .f32) (main_arg5 : IVec S800000 32) (main_arg6 : IVec S800000 32) (main_arg7 : IVec S800000 32) : IVec S_ 1 :=
  let main_v0 : FVec F S50000x133 .f32 := Host.absf main_arg0
  let main_cst : FVec F S_ .f32 := constant S_ .f32 0x7F800000#32
  let main_v1 : FVec F S50000x133 .f32 := broadcastInDim S50000x133 ![] bcast_S_S50000x133 main_cst
  let main_v2 : IVec S50000x133 1 := cmpf .olt main_v0 main_v1
  let main_c : IVec S_ 1 := constantI S_ 1 1#1
  let main_v3 : IVec S_ 1 := (fun x v => Host.reduce IntOp.andi x v reducesTo_S50000x133_S_d0_1 h_S_) main_v2 main_c
  let main_v4 : FVec F S800000x14 .f32 := Host.absf main_arg1
  let main_cst_0 : FVec F S_ .f32 := constant S_ .f32 0x7F800000#32
  let main_v5 : FVec F S800000x14 .f32 := broadcastInDim S800000x14 ![] bcast_S_S800000x14 main_cst_0
  let main_v6 : IVec S800000x14 1 := cmpf .olt main_v4 main_v5
  let main_c_1 : IVec S_ 1 := constantI S_ 1 1#1
  let main_v7 : IVec S_ 1 := (fun x v => Host.reduce IntOp.andi x v reducesTo_S800000x14_S_d0_1 h_S_) main_v6 main_c_1
  let main_v8 : IVec S_ 1 := andi main_v3 main_v7
  let main_v9 : FVec F S128x147 .f32 := Host.absf main_arg2
  let main_cst_2 : FVec F S_ .f32 := constant S_ .f32 0x7F800000#32
  let main_v10 : FVec F S128x147 .f32 := broadcastInDim S128x147 ![] bcast_S_S128x147 main_cst_2
  let main_v11 : IVec S128x147 1 := cmpf .olt main_v9 main_v10
  let main_c_3 : IVec S_ 1 := constantI S_ 1 1#1
  let main_v12 : IVec S_ 1 := (fun x v => Host.reduce IntOp.andi x v reducesTo_S128x147_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S50000x133 : Shape := ⟨2, ![50000, 133]⟩
abbrev S800000x14 : Shape := ⟨2, ![800000, 14]⟩
abbrev S128x147 : Shape := ⟨2, ![128, 147]⟩
abbrev S128x128 : Shape := ⟨2, ![128, 128]⟩
abbrev S128x261 : Shape := ⟨2, ![128, 261]⟩
abbrev S800000 : Shape := ⟨1, ![800000]⟩
abbrev S_ : Shape := ⟨0, ![]⟩
abbrev S800000x1 : Shape := ⟨2, ![800000, 1]⟩
abbrev S800000x133 : Shape := ⟨2, ![800000, 133]⟩
abbrev S800000x147 : Shape := ⟨2, ![800000, 147]⟩
abbrev S147x128 : Shape := ⟨2, ![147, 128]⟩
abbrev S800000x128 : Shape := ⟨2, ![800000, 128]⟩
abbrev S8000x147 : Shape := ⟨2, ![8000, 147]⟩
abbrev S8000x128 : Shape := ⟨2, ![8000, 128]⟩
abbrev S50000x128 : Shape := ⟨2, ![50000, 128]⟩
abbrev S50000x261 : Shape := ⟨2, ![50000, 261]⟩
abbrev S261x128 : Shape := ⟨2, ![261, 128]⟩
abbrev S5000x261 : Shape := ⟨2, ![5000, 261]⟩
abbrev S5000x128 : Shape := ⟨2, ![5000, 128]⟩

abbrev nBuf : Space → Nat
  | .hbm => 77
  | .vmem => 20
  | .smem => 0
  | _ => 0

abbrev bufTy : (tb : Table) → Fin (tcTables nBuf tb) → BufTy
  | .hbm, ⟨0, _⟩ => ⟨S50000x133, .f32⟩
  | .hbm, ⟨1, _⟩ => ⟨S800000x14, .f32⟩
  | .hbm, ⟨2, _⟩ => ⟨S128x147, .f32⟩
  | .hbm, ⟨3, _⟩ => ⟨S128x128, .f32⟩
  | .hbm, ⟨4, _⟩ => ⟨S128x261, .f32⟩
  | .hbm, ⟨5, _⟩ => ⟨S800000, .i32⟩
  | .hbm, ⟨6, _⟩ => ⟨S800000, .i32⟩
  | .hbm, ⟨7, _⟩ => ⟨S800000, .i32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x133, .f32⟩
  | .hbm, ⟨17, _⟩ => ⟨S800000x147, .f32⟩
  | .hbm, ⟨18, _⟩ => ⟨S147x128, .f32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x128, .f32⟩
  | .hbm, ⟨42, _⟩ => ⟨S800000x128, .f32⟩
  | .hbm, ⟨43, _⟩ => ⟨S128x128, .f32⟩
  | .hbm, ⟨44, _⟩ => ⟨S800000x128, .f32⟩
  | .hbm, ⟨45, _⟩ => ⟨S_, .f32⟩
  | .hbm, ⟨46, _⟩ => ⟨S50000x128, .f32⟩
  | .hbm, ⟨47, _⟩ => ⟨S800000x1, .i32⟩
  | .hbm, ⟨48, _⟩ => ⟨S50000x128, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .f32⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S800000x128, .f32⟩
  | .hbm, ⟨67, _⟩ => ⟨S800000x128, .f32⟩
  | .hbm, ⟨68, _⟩ => ⟨S128x128, .f32⟩
  | .hbm, ⟨69, _⟩ => ⟨S800000x128, .f32⟩
  | .hbm, ⟨70, _⟩ => ⟨S_, .f32⟩
  | .hbm, ⟨71, _⟩ => ⟨S50000x128, .f32⟩
  | .hbm, ⟨72, _⟩ => ⟨S800000x1, .i32⟩
  | .hbm, ⟨73, _⟩ => ⟨S50000x128, .f32⟩
  | .hbm, ⟨74, _⟩ => ⟨S50000x261, .f32⟩
  | .hbm, ⟨75, _⟩ => ⟨S261x128, .f32⟩
  | .hbm, ⟨76, _⟩ => ⟨S50000x128, .f32⟩
  | .local _ .vmem, ⟨0, _⟩ => ⟨S8000x147, .f32⟩
  | .local _ .vmem, ⟨1, _⟩ => ⟨S8000x147, .f32⟩
  | .local _ .vmem, ⟨2, _⟩ => ⟨S147x128, .f32⟩
  | .local _ .vmem, ⟨3, _⟩ => ⟨S8000x128, .f32⟩
  | .local _ .vmem, ⟨4, _⟩ => ⟨S8000x128, .f32⟩
  | .local _ .vmem, ⟨5, _⟩ => ⟨S8000x128, .f32⟩
  | .local _ .vmem, ⟨6, _⟩ => ⟨S8000x128, .f32⟩
  | .local _ .vmem, ⟨7, _⟩ => ⟨S128x128, .f32⟩
  | .local _ .vmem, ⟨8, _⟩ => ⟨S8000x128, .f32⟩
  | .local _ .vmem, ⟨9, _⟩ => ⟨S8000x128, .f32⟩
  | .local _ .vmem, ⟨10, _⟩ => ⟨S8000x128, .f32⟩
  | .local _ .vmem, ⟨11, _⟩ => ⟨S8000x128, .f32⟩
  | .local _ .vmem, ⟨12, _⟩ => ⟨S128x128, .f32⟩
  | .local _ .vmem, ⟨13, _⟩ => ⟨S8000x128, .f32⟩
  | .local _ .vmem, ⟨14, _⟩ => ⟨S8000x128, .f32⟩
  | .local _ .vmem, ⟨15, _⟩ => ⟨S5000x261, .f32⟩
  | .local _ .vmem, ⟨16, _⟩ => ⟨S5000x261, .f32⟩
  | .local _ .vmem, ⟨17, _⟩ => ⟨S261x128, .f32⟩
  | .local _ .vmem, ⟨18, _⟩ => ⟨S5000x128, .f32⟩
  | .local _ .vmem, ⟨19, _⟩ => ⟨S5000x128, .f32⟩
  | _, _ => ⟨S50000x133, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_1 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c_8 : Ref sig .tc := ⟨.hbm, 58, rfl⟩
abbrev main_v40 : Ref sig .tc := ⟨.hbm, 59, rfl⟩
abbrev main_v41 : Ref sig .tc := ⟨.hbm, 60, rfl⟩
abbrev main_c_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x147 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S147x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S8000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x261 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S261x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x133_S800000x14_S800000x147_d1 : Shape.Concatenates [S800000x133, S800000x14] S800000x147 1
  transposes_S128x147_S147x128_1_0 : S128x147.Transposes [1, 0] S147x128
  inb_S8000x147_S8000x147_0_0 : ∀ a, (![0, 0] : Fin 2 → Nat) a + S8000x147.size a ≤ S8000x147.size a
  h_S8000x147 : 0 < S8000x147.numel
  shapeCasts_S8000x147_S8000x147 : S8000x147.ShapeCasts S8000x147
  bitsLt_bf16_f32 : FTy.bits .bf16 < FTy.bits .f32
  inb_S147x128_S147x128_0_0 : ∀ a, (![0, 0] : Fin 2 → Nat) a + S147x128.size a ≤ S147x128.size a
  h_S147x128 : 0 < S147x128.numel
  shapeCasts_S147x128_S147x128 : S147x128.ShapeCasts S147x128
  inb_S8000x128_S8000x128_0_0 : ∀ a, (![0, 0] : Fin 2 → Nat) a + S8000x128.size a ≤ S8000x128.size a
  h_S8000x128 : 0 < S8000x128.numel
  bcast_S_S50000x128 : S_.BroadcastsInDim S50000x128 (![] : Fin 0 → Fin S50000x128.rank)
  transposes_S128x128_S128x128_1_0 : S128x128.Transposes [1, 0] S128x128
  shapeCasts_S8000x128_S8000x128 : S8000x128.ShapeCasts S8000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  concatenates_S50000x133_S50000x128_S50000x261_d1 : Shape.Concatenates [S50000x133, S50000x128] S50000x261 1
  transposes_S128x261_S261x128_1_0 : S128x261.Transposes [1, 0] S261x128
  inb_S5000x261_S5000x261_0_0 : ∀ a, (![0, 0] : Fin 2 → Nat) a + S5000x261.size a ≤ S5000x261.size a
  h_S5000x261 : 0 < S5000x261.numel
  shapeCasts_S5000x261_S5000x261 : S5000x261.ShapeCasts S5000x261
  inb_S261x128_S261x128_0_0 : ∀ a, (![0, 0] : Fin 2 → Nat) a + S261x128.size a ≤ S261x128.size a
  h_S261x128 : 0 < S261x128.numel
  shapeCasts_S261x128_S261x128 : S261x128.ShapeCasts S261x128
  inb_S5000x128_S5000x128_0_0 : ∀ a, (![0, 0] : Fin 2 → Nat) a + S5000x128.size a ≤ S5000x128.size a
  h_S5000x128 : 0 < S5000x128.numel
  gather_S50000x133_S800000x1_S800000x133_1_0_n_n_0_1_1133_wf : GatherDims.WF S50000x133 S800000x1 S800000x133 [1] [0] [] [0] [] 1 ![1, 133]
  dot_S8000x147_S147x128_S8000x128_1_0_0_1_n_n_wf : DotDims.WF S8000x147 S147x128 S8000x128 [1] [0] [0] [1] [] []
  scatter_S50000x128_S800000x1_S800000x128_1_0_0_1_wf : ScatterDims.WF S50000x128 S800000x1 S800000x128 [1] [0] [0] 1
  gather_S50000x128_S800000x1_S800000x128_1_0_n_n_0_1_1128_wf : GatherDims.WF S50000x128 S800000x1 S800000x128 [1] [0] [] [0] [] 1 ![1, 128]
  gather_S800000x128_S800000x1_S800000x128_1_0_n_n_0_1_1128_wf : GatherDims.WF S800000x128 S800000x1 S800000x128 [1] [0] [] [0] [] 1 ![1, 128]
  dot_S8000x128_S128x128_S8000x128_1_0_0_1_n_n_wf : DotDims.WF S8000x128 S128x128 S8000x128 [1] [0] [0] [1] [] []
  dot_S5000x261_S261x128_S5000x128_1_0_0_1_n_n_wf : DotDims.WF S5000x261 S261x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x147.size a ≤ S800000x147.size a
  hwx0_0 : ∀ i : grid0.Coords, EltTy.bits .f32 = 32 ∨ (Rect.block (s := S800000x147) S8000x147.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S147x128.size a ≤ S147x128.size a
  hwx0_1 : ∀ i : grid0.Coords, EltTy.bits .f32 = 32 ∨ (Rect.block (s := S147x128) S147x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x128.size a ≤ S800000x128.size a
  hwx0_2 : ∀ i : grid0.Coords, EltTy.bits .f32 = 32 ∨ (Rect.block (s := S800000x128) S8000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S800000x128.size a
  hwx1_0 : ∀ i : grid1.Coords, EltTy.bits .f32 = 32 ∨ (Rect.block (s := S800000x128) S8000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x128.size a ≤ S800000x128.size a
  hwx1_2 : ∀ i : grid1.Coords, EltTy.bits .f32 = 32 ∨ (Rect.block (s := S800000x128) S8000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S800000x128.size a
  hwx2_0 : ∀ i : grid2.Coords, EltTy.bits .f32 = 32 ∨ (Rect.block (s := S800000x128) S8000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x128.size a ≤ S800000x128.size a
  hwx2_2 : ∀ i : grid2.Coords, EltTy.bits .f32 = 32 ∨ (Rect.block (s := S800000x128) S8000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x261.size a ≤ S50000x261.size a
  hwx3_0 : ∀ i : grid3.Coords, EltTy.bits .f32 = 32 ∨ (Rect.block (s := S50000x261) S5000x261.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S261x128.size a ≤ S261x128.size a
  hwx3_1 : ∀ i : grid3.Coords, EltTy.bits .f32 = 32 ∨ (Rect.block (s := S261x128) S261x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)

variable [Facts₀]

def gather_S50000x133_S800000x1_S800000x133_1_0_n_n_0_1_1133 : GatherDims S50000x133 S800000x1 S800000x133 where
  offsetDims := [1]
  collapsedSliceDims := [0]
  operandBatchingDims := []
  startIndicesBatchingDims := []
  startIndexMap := [0]
  indexVectorDim := 1
  sliceSizes := ![1, 133]
  wf := gather_S50000x133_S800000x1_S800000x133_1_0_n_n_0_1_1133_wf
def dot_S8000x147_S147x128_S8000x128_1_0_0_1_n_n : DotDims S8000x147 S147x128 S8000x128 where
  lhsContracting := [1]
  rhsContracting := [0]
  lhsNonContracting := [0]
  rhsNonContracting := [1]
  lhsBatch := []
  rhsBatch := []
  wf := dot_S8000x147_S147x128_S8000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S800000x128_S800000x1_S800000x128_1_0_n_n_0_1_1128 : GatherDims S800000x128 S800000x1 S800000x128 where
  offsetDims := [1]
  collapsedSliceDims := [0]
  operandBatchingDims := []
  startIndicesBatchingDims := []
  startIndexMap := [0]
  indexVectorDim := 1
  sliceSizes := ![1, 128]
  wf := gather_S800000x128_S800000x1_S800000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S5000x261_S261x128_S5000x128_1_0_0_1_n_n : DotDims S5000x261 S261x128 S5000x128 where
  lhsContracting := [1]
  rhsContracting := [0]
  lhsNonContracting := [0]
  rhsNonContracting := [1]
  lhsBatch := []
  rhsBatch := []
  wf := dot_S5000x261_S261x128_S5000x128_1_0_0_1_n_n_wf

abbrev win0_0 : Pipeline.Window sig grid0 :=
  Pipeline.Window.ofSpec (Memref.whole main_v7) S8000x147.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S147x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S8000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v27) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29) S8000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S8000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v53) S5000x261.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S261x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v55) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x133 : Shape := ⟨2, ![50000, 133]⟩
abbrev S800000x14 : Shape := ⟨2, ![800000, 14]⟩
abbrev S128x147 : Shape := ⟨2, ![128, 147]⟩
abbrev S128x128 : Shape := ⟨2, ![128, 128]⟩
abbrev S128x261 : Shape := ⟨2, ![128, 261]⟩
abbrev S800000 : Shape := ⟨1, ![800000]⟩
abbrev S_ : Shape := ⟨0, ![]⟩
abbrev S800000x1 : Shape := ⟨2, ![800000, 1]⟩
abbrev S800000x133 : Shape := ⟨2, ![800000, 133]⟩
abbrev S800000x147 : Shape := ⟨2, ![800000, 147]⟩
abbrev S147x128 : Shape := ⟨2, ![147, 128]⟩
abbrev S800000x128 : Shape := ⟨2, ![800000, 128]⟩
abbrev S50000x128 : Shape := ⟨2, ![50000, 128]⟩
abbrev S50000x261 : Shape := ⟨2, ![50000, 261]⟩
abbrev S261x128 : Shape := ⟨2, ![261, 128]⟩

abbrev nBuf : Space → Nat
  | .hbm => 89
  | .vmem => 0
  | .smem => 0
  | _ => 0

abbrev bufTy : (tb : Table) → Fin (tcTables nBuf tb) → BufTy
  | .hbm, ⟨0, _⟩ => ⟨S50000x133, .f32⟩
  | .hbm, ⟨1, _⟩ => ⟨S800000x14, .f32⟩
  | .hbm, ⟨2, _⟩ => ⟨S128x147, .f32⟩
  | .hbm, ⟨3, _⟩ => ⟨S128x128, .f32⟩
  | .hbm, ⟨4, _⟩ => ⟨S128x261, .f32⟩
  | .hbm, ⟨5, _⟩ => ⟨S800000, .i32⟩
  | .hbm, ⟨6, _⟩ => ⟨S800000, .i32⟩
  | .hbm, ⟨7, _⟩ => ⟨S800000, .i32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x133, .f32⟩
  | .hbm, ⟨17, _⟩ => ⟨S800000x147, .f32⟩
  | .hbm, ⟨18, _⟩ => ⟨S147x128, .f32⟩
  | .hbm, ⟨19, _⟩ => ⟨S800000x128, .f32⟩
  | .hbm, ⟨20, _⟩ => ⟨S_, .f32⟩
  | .hbm, ⟨21, _⟩ => ⟨S800000x128, .f32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x128, .f32⟩
  | .hbm, ⟨45, _⟩ => ⟨S800000x128, .f32⟩
  | .hbm, ⟨46, _⟩ => ⟨S128x128, .f32⟩
  | .hbm, ⟨47, _⟩ => ⟨S800000x128, .f32⟩
  | .hbm, ⟨48, _⟩ => ⟨S_, .f32⟩
  | .hbm, ⟨49, _⟩ => ⟨S800000x128, .f32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x128, .f32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000x128, .f32⟩
  | .hbm, ⟨73, _⟩ => ⟨S800000x128, .f32⟩
  | .hbm, ⟨74, _⟩ => ⟨S128x128, .f32⟩
  | .hbm, ⟨75, _⟩ => ⟨S800000x128, .f32⟩
  | .hbm, ⟨76, _⟩ => ⟨S_, .f32⟩
  | .hbm, ⟨77, _⟩ => ⟨S800000x128, .f32⟩
  | .hbm, ⟨78, _⟩ => ⟨S800000x128, .f32⟩
  | .hbm, ⟨79, _⟩ => ⟨S_, .f32⟩
  | .hbm, ⟨80, _⟩ => ⟨S50000x128, .f32⟩
  | .hbm, ⟨81, _⟩ => ⟨S800000x1, .i32⟩
  | .hbm, ⟨82, _⟩ => ⟨S50000x128, .f32⟩
  | .hbm, ⟨83, _⟩ => ⟨S50000x261, .f32⟩
  | .hbm, ⟨84, _⟩ => ⟨S261x128, .f32⟩
  | .hbm, ⟨85, _⟩ => ⟨S50000x128, .f32⟩
  | .hbm, ⟨86, _⟩ => ⟨S_, .f32⟩
  | .hbm, ⟨87, _⟩ => ⟨S50000x128, .f32⟩
  | .hbm, ⟨88, _⟩ => ⟨S50000x128, .f32⟩
  | _, _ => ⟨S50000x133, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call0_cst : Ref sig .tc := ⟨.hbm, 20, rfl⟩
abbrev main_call0_v0 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call1_cst : Ref sig .tc := ⟨.hbm, 48, rfl⟩
abbrev main_call1_v0 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_6 : Ref sig .tc := ⟨.hbm, 55, rfl⟩
abbrev main_v35 : Ref sig .tc := ⟨.hbm, 56, rfl⟩
abbrev main_v36 : Ref sig .tc := ⟨.hbm, 57, rfl⟩
abbrev main_c_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_8 : Ref sig .tc := ⟨.hbm, 64, rfl⟩
abbrev main_v42 : Ref sig .tc := ⟨.hbm, 65, rfl⟩
abbrev main_v43 : Ref sig .tc := ⟨.hbm, 66, rfl⟩
abbrev main_c_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_call2_cst : Ref sig .tc := ⟨.hbm, 76, rfl⟩
abbrev main_call2_v0 : Ref sig .tc := ⟨.hbm, 77, rfl⟩
abbrev main_v52 : Ref sig .tc := ⟨.hbm, 78, rfl⟩
abbrev main_cst_10 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_call3_cst : Ref sig .tc := ⟨.hbm, 86, rfl⟩
abbrev main_call3_v0 : Ref sig .tc := ⟨.hbm, 87, rfl⟩
abbrev main_v59 : Ref sig .tc := ⟨.hbm, 88, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x133_S800000x14_S800000x147_d1 : Shape.Concatenates [S800000x133, S800000x14] S800000x147 1
  transposes_S128x147_S147x128_1_0 : S128x147.Transposes [1, 0] S147x128
  bcast_S_S800000x128 : S_.BroadcastsInDim S800000x128 (![] : Fin 0 → Fin S800000x128.rank)
  bcast_S_S50000x128 : S_.BroadcastsInDim S50000x128 (![] : Fin 0 → Fin S50000x128.rank)
  transposes_S128x128_S128x128_1_0 : S128x128.Transposes [1, 0] S128x128
  concatenates_S50000x133_S50000x128_S50000x261_d1 : Shape.Concatenates [S50000x133, S50000x128] S50000x261 1
  transposes_S128x261_S261x128_1_0 : S128x261.Transposes [1, 0] S261x128
  gather_S50000x133_S800000x1_S800000x133_1_0_n_n_0_1_1133_wf : GatherDims.WF S50000x133 S800000x1 S800000x133 [1] [0] [] [0] [] 1 ![1, 133]
  dot_S800000x147_S147x128_S800000x128_1_0_0_1_n_n_wf : DotDims.WF S800000x147 S147x128 S800000x128 [1] [0] [0] [1] [] []
  scatter_S50000x128_S800000x1_S800000x128_1_0_0_1_wf : ScatterDims.WF S50000x128 S800000x1 S800000x128 [1] [0] [0] 1
  gather_S50000x128_S800000x1_S800000x128_1_0_n_n_0_1_1128_wf : GatherDims.WF S50000x128 S800000x1 S800000x128 [1] [0] [] [0] [] 1 ![1, 128]
  gather_S800000x128_S800000x1_S800000x128_1_0_n_n_0_1_1128_wf : GatherDims.WF S800000x128 S800000x1 S800000x128 [1] [0] [] [0] [] 1 ![1, 128]
  dot_S800000x128_S128x128_S800000x128_1_0_0_1_n_n_wf : DotDims.WF S800000x128 S128x128 S800000x128 [1] [0] [0] [1] [] []
  dot_S50000x261_S261x128_S50000x128_1_0_0_1_n_n_wf : DotDims.WF S50000x261 S261x128 S50000x128 [1] [0] [0] [1] [] []

variable [Facts₀]

def gather_S50000x133_S800000x1_S800000x133_1_0_n_n_0_1_1133 : GatherDims S50000x133 S800000x1 S800000x133 where
  offsetDims := [1]
  collapsedSliceDims := [0]
  operandBatchingDims := []
  startIndicesBatchingDims := []
  startIndexMap := [0]
  indexVectorDim := 1
  sliceSizes := ![1, 133]
  wf := gather_S50000x133_S800000x1_S800000x133_1_0_n_n_0_1_1133_wf
def dot_S800000x147_S147x128_S800000x128_1_0_0_1_n_n : DotDims S800000x147 S147x128 S800000x128 where
  lhsContracting := [1]
  rhsContracting := [0]
  lhsNonContracting := [0]
  rhsNonContracting := [1]
  lhsBatch := []
  rhsBatch := []
  wf := dot_S800000x147_S147x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S800000x128_S800000x1_S800000x128_1_0_n_n_0_1_1128 : GatherDims S800000x128 S800000x1 S800000x128 where
  offsetDims := [1]
  collapsedSliceDims := [0]
  operandBatchingDims := []
  startIndicesBatchingDims := []
  startIndexMap := [0]
  indexVectorDim := 1
  sliceSizes := ![1, 128]
  wf := gather_S800000x128_S800000x1_S800000x128_1_0_n_n_0_1_1128_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S50000x261_S261x128_S50000x128_1_0_0_1_n_n : DotDims S50000x261 S261x128 S50000x128 where
  lhsContracting := [1]
  rhsContracting := [0]
  lhsNonContracting := [0]
  rhsNonContracting := [1]
  lhsBatch := []
  rhsBatch := []
  wf := dot_S50000x261_S261x128_S50000x128_1_0_0_1_n_n_wf

class Facts : Prop extends Facts₀ where

variable [Facts]
-- ==== Proof.KernelRun.lean ====
/-
  The kernel program's run, read one step further than its frame: every weakly fair execution ends with the result
  array holding what the last call's write-backs leave in it, and the eight argument arrays as they were launched.
  The contents of every buffer at each boundary between a stretch of host operations and a call are the fold W0 … W8
  of the frame module; the run through the eight segments is the frame's, and only the reading of the final state
  differs: besides the arguments it reads the result's buffer, which is among the buffers the last state holds.
-/
import proofs.«180403_j11158325035420_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result array at the last boundary's contents
    and the arguments as launched. -/
theorem run : θ_run defs (onTc (τ := τ) (main (F := F))) ⟨m, fun _ => 0, ρ⟩ (fun r => ∀ c : Dev nD,
      r.2.mem ((c.tc : Thread nD τ).loc main_v55) = W8 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v55 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.Result

end
-- ==== Proof.Spec.lean ====
/-
  The network both programs compute, as one function of the eight arguments, in the host's operations.
  Edges carry 128 hidden features.  An edge's first state is the rectified linear image of its source atom's features
  joined with its bond's features; each of the two message-passing steps sums the edge states into their destination
  nodes, reads that sum back at every edge's source node, subtracts the reverse edge's state, and applies the
  rectified linear layer of the hidden weights; the read-out sums the last edge states into the nodes, joins them
  to the atom features and applies the rectified linear layer of the output weights.  An index below zero counts
  from the end of its axis (the host adds the axis's extent to it), at both the node and the edge look-ups.
-/
import proofs.«180403_j11158325035420_1_alg».proof.ReferenceIdeal
import Idealize.ShloMosaic.PureOps.Ideal

noncomputable section

namespace Cert.Spec

open Idealize.ShloMosaic Cert.ReferenceIdeal

variable [Cert.ReferenceIdeal.Facts₀]
open Cert.ReferenceIdeal.Facts₀

/-- Rectified product with a 147-row weight matrix, over all edges. -/
def lin147 (X : FVec Ideal S800000x147 .f32) (W : FVec Ideal S147x128 .f32) :
    FVec Ideal S800000x128 .f32 :=
  maximumf (Host.dotGeneral dot_S800000x147_S147x128_S800000x128_1_0_0_1_n_n none X W)
    (broadcastInDim S800000x128 ![] bcast_S_S800000x128 (constant S_ .f32 0x00000000#32))

/-- Rectified product with a 128-row weight matrix, over all edges. -/
def lin128 (X : FVec Ideal S800000x128 .f32) (W : FVec Ideal S128x128 .f32) :
    FVec Ideal S800000x128 .f32 :=
  maximumf (Host.dotGeneral dot_S800000x128_S128x128_S800000x128_1_0_0_1_n_n none X W)
    (broadcastInDim S800000x128 ![] bcast_S_S800000x128 (constant S_ .f32 0x00000000#32))

/-- Rectified product with a 261-row weight matrix, over all nodes. -/
def lin261 (X : FVec Ideal S50000x261 .f32) (W : FVec Ideal S261x128 .f32) :
    FVec Ideal S50000x128 .f32 :=
  maximumf (Host.dotGeneral dot_S50000x261_S261x128_S50000x128_1_0_0_1_n_n none X W)
    (broadcastInDim S50000x128 ![] bcast_S_S50000x128 (constant S_ .f32 0x00000000#32))

/-- Node indices as a column, an index below zero counted from the end of the 50000 nodes. -/
def nodeAt (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- Edge indices as a column, an index below zero counted from the end of the 800000 edges. -/
def edgeAt (r : IVec S800000 32) : IVec S800000x1 32 :=
  broadcastInDim S800000x1 ![0] bcast_S800000_S800000x1_0
    (select (cmpi .slt r (broadcastInDim S800000 ![] bcast_S_S800000 (constantI S_ 32 0#32)))
      (addi r (broadcastInDim S800000 ![] bcast_S_S800000 (constantI S_ 32 800000#32))) r)

/-- The edge states summed into their destination nodes, from zero. -/
def nodeSum (d : IVec S800000 32) (h : FVec Ideal S800000x128 .f32) :
    FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 d) h

/-- An edge's input features: its source atom's, then its bond's. -/
def edgeIn (a : FVec Ideal S50000x133 .f32) (b : FVec Ideal S800000x14 .f32)
    (s : IVec S800000 32) : FVec Ideal S800000x147 .f32 :=
  concatenate S800000x147 1 [⟨S800000x133, Host.gather gather_S50000x133_S800000x1_S800000x133_1_0_n_n_0_1_1133 a (nodeAt s)⟩,
    ⟨S800000x14, b⟩] concatenates_S800000x133_S800000x14_S800000x147_d1

/-- The messages of a step: the node sums read at each edge's source, less the reverse edge's state. -/
def messages (s d r : IVec S800000 32) (h : FVec Ideal S800000x128 .f32) :
    FVec Ideal S800000x128 .f32 :=
  subf (Host.gather gather_S50000x128_S800000x1_S800000x128_1_0_n_n_0_1_1128 (nodeSum d h) (nodeAt s))
    (Host.gather gather_S800000x128_S800000x1_S800000x128_1_0_n_n_0_1_1128 h (edgeAt r))

/-- A node's read-out input: its atom features, then the sum of the edge states arriving at it. -/
def nodeIn (a : FVec Ideal S50000x133 .f32) (d : IVec S800000 32)
    (h : FVec Ideal S800000x128 .f32) : FVec Ideal S50000x261 .f32 :=
  concatenate S50000x261 1 [⟨S50000x133, a⟩, ⟨S50000x128, nodeSum d h⟩] concatenates_S50000x133_S50000x128_S50000x261_d1

/-- The first edge states. -/
def edge0 (a : FVec Ideal S50000x133 .f32) (b : FVec Ideal S800000x14 .f32)
    (wi : FVec Ideal S128x147 .f32) (s : IVec S800000 32) :
    FVec Ideal S800000x128 .f32 :=
  lin147 (edgeIn a b s) (transpose S147x128 [1, 0] wi transposes_S128x147_S147x128_1_0)

/-- One message-passing step. -/
def step (wh : FVec Ideal S128x128 .f32) (s d r : IVec S800000 32)
    (h : FVec Ideal S800000x128 .f32) : FVec Ideal S800000x128 .f32 :=
  lin128 (messages s d r h) (transpose S128x128 [1, 0] wh transposes_S128x128_S128x128_1_0)

/-- The read-out. -/
def readout (a : FVec Ideal S50000x133 .f32) (wo : FVec Ideal S128x261 .f32)
    (d : IVec S800000 32) (h : FVec Ideal S800000x128 .f32) :
    FVec Ideal S50000x128 .f32 :=
  lin261 (nodeIn a d h) (transpose S261x128 [1, 0] wo transposes_S128x261_S261x128_1_0)

/-- The whole network: two steps between the first edge states and the read-out. -/
def network (a : FVec Ideal S50000x133 .f32) (b : FVec Ideal S800000x14 .f32)
    (wi : FVec Ideal S128x147 .f32) (wh : FVec Ideal S128x128 .f32)
    (wo : FVec Ideal S128x261 .f32) (s d r : IVec S800000 32) :
    FVec Ideal S50000x128 .f32 :=
  readout a wo d (step wh s d r (step wh s d r (edge0 a b wi s)))

end Cert.Spec

end
-- ==== Proof.LibLinRelu.lean ====
/-
  The one law this certificate rests on, at the exact values: a row-by-column product followed by a
  rectification, read at one output element, is  max (∑ₖ x[p,k] · w[k,q]) 0  — whether it is spelt as a
  matrix unit's product into a zero accumulator of operands narrowed to sixteen bits (the narrowing is the identity
  on exact values) and a maximum with a splat zero, or as a host contraction followed by a maximum with a broadcast
  zero.  Both spellings sum over the contraction shape's own index type; the sums are re-indexed through the one
  contracted axis's coordinate, so that two contractions of different row counts meet in the same sum over `Fin K`.
-/
import Idealize.ShloMosaic.PureOps.Ideal.Laws
import Idealize.ShloMosaic.Lib.ValueIdx
import Idealize.ShloMosaic.Lib.Pipeline.Value

noncomputable section

namespace Cert.LinRelu

open Idealize.ShloMosaic Idealize.ShloMosaic.ValueIdx

/-- A sum over a one-axis contraction index is the sum over that axis's coordinate, once each operand's index
    at the coordinate is known. -/
theorem contr_sum {sl sr so : Shape} (d : DotDims sl sr so) (K : Nat) (hr : d.contr.rank = 1)
    (hs : d.contr.size ⟨0, by omega⟩ = K) (l : sl.Idx → EReal) (r : sr.Idx → EReal) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    ∑ q : d.contr.Idx, l (d.lhsIdx j q) * r (d.rhsIdx j q) = ∑ k : Fin K, l (li k) * r (ri k) := by
  rw [← Equiv.sum_comp (contrEquiv1 d K hr hs).symm]
  exact Finset.sum_congr rfl fun k _ => by rw [hl k, hrr k]

/-- The kernel body's value at one element of its output block: the operands cast to their own shape, narrowed,
    multiplied into a zero accumulator, and the maximum taken with a splat zero. -/
theorem body_apply {sl sr so : Shape} (d : DotDims sl sr so) (x : FVec Ideal sl .f32) (w : FVec Ideal sr .f32)
    (hcl : sl.ShapeCasts sl) (hcr : sr.ShapeCasts sr) (hb : (FTy.bf16).bits < (FTy.f32).bits) (j : so.Idx) :
    maximumf (matmul d none (truncf .bf16 (shapeCast sl x hcl) hb) (truncf .bf16 (shapeCast sr w hcr) hb)
        (constant so .f32 0x00000000#32)) (broadcast so (Scalar.ofBits .f32 0x00000000#32)) j
      = max (∑ q : d.contr.Idx, x (d.lhsIdx j q) * w (d.rhsIdx j q)) 0 := by
  rw [shapeCast_self, shapeCast_self]
  show max (FloatOps.matmul d none (truncf .bf16 x hb) (truncf .bf16 w hb) (constant so .f32 0x00000000#32) j)
    (Ideal.ofBits .f32 0x00000000#32) = _
  rw [Ideal.matmul_constant_zero_apply, Ideal.ofBits_zero_f32]
  rfl

/-- The host's contraction followed by the maximum with a broadcast zero, at one element. -/
theorem host_apply {sl sr so : Shape} (d : DotDims sl sr so) (l : FVec Ideal sl .f32) (r : FVec Ideal sr .f32)
    (hz : (⟨0, ![]⟩ : Shape).BroadcastsInDim so (![] : Fin 0 → Fin so.rank)) (i : so.Idx) :
    maximumf (Host.dotGeneral d none l r) (broadcastInDim so ![] hz (constant (F := Ideal) ⟨0, ![]⟩ .f32 0x00000000#32)) i
      = max (∑ q : d.contr.Idx, l (d.lhsIdx i q) * r (d.rhsIdx i q)) 0 := by
  show max (Host.dotGeneral d none l r i) (broadcastInDim so ![] hz (constant (F := Ideal) ⟨0, ![]⟩ .f32 0x00000000#32) i) = _
  rw [broadcastInDim_apply _ hz _ i ValueIdx.ix0 (fun a => a.elim0)]
  simp only [Host.dotGeneral]
  rw [Ideal.dotGeneral_apply]
  show max _ (Ideal.ofBits .f32 0x00000000#32) = _
  rw [Ideal.ofBits_zero_f32]

/-! ## The plain product: rows by columns, one contracted axis -/

section Plain

variable (M K N : Nat)

theorem plain_rank : (DotDims.plain M K N).contr.rank = 1 := rfl
theorem plain_size : (DotDims.plain M K N).contr.size ⟨0, by rw [plain_rank]; exact Nat.one_pos⟩ = K := rfl

/-- For the plain product the contraction at output element (p, q) runs over x[p, k] · w[k, q]. -/
theorem plain_contr_sum (l : (⟨2, ![M, K]⟩ : Shape).Idx → EReal) (r : (⟨2, ![K, N]⟩ : Shape).Idx → EReal) (p : Fin M) (q : Fin N) :
    ∑ c : (DotDims.plain M K N).contr.Idx,
        l ((DotDims.plain M K N).lhsIdx (ix2 p q) c) * r ((DotDims.plain M K N).rhsIdx (ix2 p q) c)
      = ∑ k : Fin K, l (ix2 p k) * r (ix2 k q) := by
  refine contr_sum (DotDims.plain M K N) K (plain_rank M K N) (plain_size M K N) l r (ix2 p q)
    (fun k => ix2 p k) (fun k => ix2 k q) (fun k => ?_) (fun k => ?_)
  · funext a
    apply Fin.ext
    have hk := contrEquiv1_symm_val (DotDims.plain M K N) K (plain_rank M K N) (plain_size M K N) k
    match a with
    | ⟨0, _⟩ => rfl
    | ⟨1, _⟩ => exact ((DotDims.plain M K N).lhsIdx_val_of_single rfl _ _).trans hk
  · funext a
    apply Fin.ext
    have hk := contrEquiv1_symm_val (DotDims.plain M K N) K (plain_rank M K N) (plain_size M K N) k
    match a with
    | ⟨0, _⟩ => exact ((DotDims.plain M K N).rhsIdx_val_of_single rfl _ _).trans hk
    | ⟨1, _⟩ => rfl

/-- The kernel body's value at element (p, q) of its block, for any record that is the plain product's. -/
theorem body_plain (d : DotDims ⟨2, ![M, K]⟩ ⟨2, ![K, N]⟩ ⟨2, ![M, N]⟩) (hd : d = DotDims.plain M K N)
    (x : FVec Ideal ⟨2, ![M, K]⟩ .f32) (w : FVec Ideal ⟨2, ![K, N]⟩ .f32)
    (hcl : (⟨2, ![M, K]⟩ : Shape).ShapeCasts ⟨2, ![M, K]⟩) (hcr : (⟨2, ![K, N]⟩ : Shape).ShapeCasts ⟨2, ![K, N]⟩)
    (hb : (FTy.bf16).bits < (FTy.f32).bits) (p : Fin M) (q : Fin N) :
    maximumf (matmul d none (truncf .bf16 (shapeCast ⟨2, ![M, K]⟩ x hcl) hb) (truncf .bf16 (shapeCast ⟨2, ![K, N]⟩ w hcr) hb)
        (constant ⟨2, ![M, N]⟩ .f32 0x00000000#32)) (broadcast ⟨2, ![M, N]⟩ (Scalar.ofBits .f32 0x00000000#32)) (ix2 p q)
      = max (∑ k : Fin K, x (ix2 p k) * w (ix2 k q)) 0 := by
  subst hd
  rw [body_apply, plain_contr_sum]

/-- The host's contraction and rectification at element (i, q), for any record that is the plain product's. -/
theorem host_plain (d : DotDims ⟨2, ![M, K]⟩ ⟨2, ![K, N]⟩ ⟨2, ![M, N]⟩) (hd : d = DotDims.plain M K N)
    (l : FVec Ideal ⟨2, ![M, K]⟩ .f32) (r : FVec Ideal ⟨2, ![K, N]⟩ .f32)
    (hz : (⟨0, ![]⟩ : Shape).BroadcastsInDim ⟨2, ![M, N]⟩ (![] : Fin 0 → Fin 2)) (i : Fin M) (q : Fin N) :
    maximumf (Host.dotGeneral d none l r) (broadcastInDim ⟨2, ![M, N]⟩ ![] hz (constant (F := Ideal) ⟨0, ![]⟩ .f32 0x00000000#32)) (ix2 i q)
      = max (∑ k : Fin K, l (ix2 i k) * r (ix2 k q)) 0 := by
  subst hd
  rw [host_apply, plain_contr_sum]

end Plain

end Cert.LinRelu

end
-- ==== Proof.Layer0.lean ====
/-
  The first layer of edge messages.  The call's grid has one hundred points; point t takes rows 8000·t … 8000·t + 7999
  of the edge-feature matrix X (147 columns) and the whole transposed weight matrix W (147 × 128), and writes rows
  8000·t … 8000·t + 7999 of the result.  Element (p, q) of what point t writes is  max (∑ₖ X[8000·t + p, k] · W[k, q]) 0,
  which is element (8000·t + p, q) of the rectified product of the WHOLE matrices; the hundred row blocks cover all
  800000 rows, so the array the call leaves is that rectified product — the host's contraction followed by a maximum
  with zero, read on the same two arrays.
-/
import proofs.«180403_j11158325035420_1_alg».proof.Proof.Gen.KernelIdeal.Frame
import proofs.«180403_j11158325035420_1_alg».proof.ReferenceIdeal
import proofs.«180403_j11158325035420_1_alg».proof.Proof.LibLinRelu
import Idealize.ShloMosaic.Lib.Pipeline.Value

noncomputable section

open Idealize.ShloMosaic Idealize.ShloMosaic.TcCoe Idealize.SL.Sem
open Idealize.ShloMosaic.Pipeline (Dat)
open Idealize.ShloMosaic.ValueIdx

namespace Cert.KernelIdeal.Layer0

open Cert.KernelIdeal Cert.KernelIdeal.Gen

variable [hR : Cert.ReferenceIdeal.Facts₀]
variable (V : (c : Dev nD) → (b : Ref sig .tc) → Buf (Elt Ideal) ((c : Thread nD τ).loc b))

/-- The rectified product of the whole matrices, in the host's spelling. -/
abbrev whole (X : FVec Ideal Cert.ReferenceIdeal.S800000x147 .f32) (W : FVec Ideal Cert.ReferenceIdeal.S147x128 .f32) :
    FVec Ideal Cert.ReferenceIdeal.S800000x128 .f32 :=
  maximumf (Host.dotGeneral Cert.ReferenceIdeal.dot_S800000x147_S147x128_S800000x128_1_0_0_1_n_n none X W)
    (broadcastInDim Cert.ReferenceIdeal.S800000x128 ![] Cert.ReferenceIdeal.Facts₀.bcast_S_S800000x128
      (constant Cert.ReferenceIdeal.S_ .f32 0x00000000#32))

theorem whole_apply (X : FVec Ideal Cert.ReferenceIdeal.S800000x147 .f32) (W : FVec Ideal Cert.ReferenceIdeal.S147x128 .f32)
    (i : Fin 800000) (q : Fin 128) :
    whole X W (ix2 i q) = max (∑ k : Fin 147, X (ix2 i k) * W (ix2 k q)) 0 :=
  Cert.LinRelu.host_plain 800000 147 128 _ rfl X W _ i q

theorem body_apply (x : Vec Ideal S8000x147 .f32) (w : Vec Ideal S147x128 .f32) (p : Fin 8000) (q : Fin 128) :
    k0_pay1 x w (ix2 p q) = max (∑ k : Fin 147, x (ix2 p k) * w (ix2 k q)) 0 :=
  Cert.LinRelu.body_plain 8000 147 128 _ rfl x w _ _ _ p q

theorem hz : (![0, 0] : Fin 2 → Nat) = fun _ => 0 := funext fun a => by fin_cases a <;> rfl

/-- The index maps over the grid: the row windows move one block per point, the weight window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The rows window's block at point t is rows 8000·t … of its array. -/
theorem rows_apply (c : Dev nD) (t : Fin cfg0.N) (p : Fin 8000) (k : Fin 147) (i : Fin 800000) (hi : i.val = 8000 * t.val + p.val) :
    (iblk0 V c 0 t : Vec Ideal S8000x147 .f32) (ix2 p k) = (V c main_v7 : Vec Ideal S800000x147 .f32) (ix2 i k) := by
  obtain ⟨e0, e1, -, -, -, -⟩ := idx_facts t
  unfold iblk0
  rw [View.read_apply]
  show V c main_v7 (((cfg0.win 0).blk t).view.emb (ix2 p k)) = V c main_v7 (ix2 i k)
  refine congrArg (V c main_v7) (funext fun a => Fin.ext ?_)
  match a with
  | ⟨0, _⟩ => show win0_0.index t (0 : Fin 2) * 8000 + 1 * p.val = i.val; rw [e0, hi]; omega
  | ⟨1, _⟩ => show win0_0.index t (1 : Fin 2) * 147 + 1 * k.val = k.val; rw [e1]; omega

/-- The weight window's block at every point is its whole array. -/
theorem weights_apply (c : Dev nD) (t : Fin cfg0.N) (k : Fin 147) (q : Fin 128) :
    (iblk0 V c 1 t : Vec Ideal S147x128 .f32) (ix2 k q) = (V c main_v8 : Vec Ideal S147x128 .f32) (ix2 k q) := by
  obtain ⟨-, -, e2, e3, -, -⟩ := idx_facts t
  unfold iblk0
  rw [View.read_apply]
  show V c main_v8 (((cfg0.win 1).blk t).view.emb (ix2 k q)) = V c main_v8 (ix2 k q)
  refine congrArg (V c main_v8) (funext fun a => Fin.ext ?_)
  match a with
  | ⟨0, _⟩ => show win0_1.index t (0 : Fin 2) * 147 + 1 * k.val = k.val; rw [e2]; omega
  | ⟨1, _⟩ => show win0_1.index t (1 : Fin 2) * 128 + 1 * q.val = q.val; rw [e3]; omega

/-- What point t writes back is its row block of the whole rectified product. -/
theorem flushed_eq (c : Dev nD) (t : Fin cfg0.N) :
    (dat0 V c).flushed 2 t = ((cfg0.win 2).blk t).view.read (Elt Ideal) (whole (V c main_v7) (V c main_v8)) := by
  show (cfg0.win 2).cut (grid0.coords t) ((dat0 V c).after 2 t) = _
  rw [after0_2]
  unfold out0_2
  rw [View.canon_unit_zero hz]
  simp only [View.ld_unit_zero (S := S8000x147) hz, View.ld_unit_zero (S := S147x128) hz]
  obtain ⟨-, -, -, -, e4, e5⟩ := idx_facts t
  funext y
  obtain ⟨p, q, rfl⟩ : ∃ (p : Fin 8000) (q : Fin 128), y = ix2 p q := ⟨y 0, y 1, eq_ix2 y⟩
  have hp : p.val < 8000 := p.isLt
  have ht : t.val < 100 := Nat.lt_of_lt_of_eq t.isLt N_0
  have hrow : 8000 * t.val + p.val < 800000 := by omega
  show k0_pay1 (iblk0 V c 0 t) (iblk0 V c 1 t) (ix2 p q) = whole (V c main_v7) (V c main_v8) (((cfg0.win 2).blk t).view.emb (ix2 p q))
  have hemb : ((cfg0.win 2).blk t).view.emb (ix2 p q) = (ix2 (⟨8000 * t.val + p.val, hrow⟩ : Fin 800000) q : S800000x128.Idx) := by
    funext a
    apply Fin.ext
    match a with
    | ⟨0, _⟩ => show win0_2.index t (0 : Fin 2) * 8000 + 1 * p.val = 8000 * t.val + p.val; rw [e4]; omega
    | ⟨1, _⟩ => show win0_2.index t (1 : Fin 2) * 128 + 1 * q.val = q.val; rw [e5]; omega
  rw [hemb, body_apply, whole_apply]
  refine congrArg (fun s => max s 0) (Finset.sum_congr rfl fun k _ => ?_)
  rw [rows_apply V c t p k ⟨8000 * t.val + p.val, hrow⟩ rfl, weights_apply V c t k q]

/-- An index of the result is in point t's block iff its row is in that block's range. -/
theorem mem_blk (t : Fin cfg0.N) (i : S800000x128.Idx) :
    i ∈ ((cfg0.win 2).blk t).view.set ↔ ∀ a : Fin 2, win0_2.index t a * S8000x128.size a ≤ (i a).val ∧ (i a).val < win0_2.index t a * S8000x128.size a + S8000x128.size a := by
  show i ∈ ((View.whole main_v9).slice (win0_2.rect t)).set ↔ _
  rw [View.set_slice_whole, Rect.mem_set_unit]
  exact Iff.rfl

/-- Row r lies in the block of point r / 8000. -/
theorem cover (i : S800000x128.Idx) : ∃ t : Fin cfg0.N, (cfg0.win 2).flush t = true ∧ i ∈ ((cfg0.win 2).blk t).view.set := by
  have h0 : (i 0).val < 800000 := (i 0).isLt
  have h1 : (i 1).val < 128 := (i 1).isLt
  have hN : cfg0.N = 100 := N_0
  refine ⟨⟨(i 0).val / 8000, by rw [hN]; omega⟩, flush0_2 _, ?_⟩
  rw [mem_blk]
  obtain ⟨-, -, -, -, e4, e5⟩ := idx_facts ⟨(i 0).val / 8000, by rw [hN]; omega⟩
  intro a
  match a with
  | ⟨0, _⟩ =>
    show win0_2.index _ (0 : Fin 2) * 8000 ≤ (i 0).val ∧ (i 0).val < win0_2.index _ (0 : Fin 2) * 8000 + 8000
    rw [e4]; show (i 0).val / 8000 * 8000 ≤ (i 0).val ∧ (i 0).val < (i 0).val / 8000 * 8000 + 8000; omega
  | ⟨1, _⟩ =>
    show win0_2.index _ (1 : Fin 2) * 128 ≤ (i 1).val ∧ (i 1).val < win0_2.index _ (1 : Fin 2) * 128 + 128
    rw [e5]; omega

/-- The array the call leaves: the rectified product of the two arrays it was entered with. -/
theorem final (c : Dev nD) : (dat0 V c).arrAt 2 cfg0.N = whole (V c main_v7) (V c main_v8) :=
  (dat0 V c).arrAt_eq_of_cover 2 (whole (V c main_v7) (V c main_v8)) (fun t _ => flushed_eq V c t) cover

end Cert.KernelIdeal.Layer0

end
-- ==== Proof.Layer1.lean ====
/-
  The first message-passing step's linear layer.  The call's grid has one hundred points; point t takes rows 8000·t … 8000·t + 7999 of its left
  array X (128 columns) and the whole of its right array W (128 × 128), and writes rows 8000·t … 8000·t + 7999 of the
  result.  Element (p, q) of what point t writes is  max (∑ₖ X[8000·t + p, k] · W[k, q]) 0,  which is element
  (8000·t + p, q) of the rectified product of the WHOLE arrays; the row blocks cover all 800000 rows, so the array
  the call leaves is that rectified product — the host's contraction followed by a maximum with zero, read on the
  same two arrays.
-/
import proofs.«180403_j11158325035420_1_alg».proof.Proof.Gen.KernelIdeal.Frame
import proofs.«180403_j11158325035420_1_alg».proof.ReferenceIdeal
import proofs.«180403_j11158325035420_1_alg».proof.Proof.LibLinRelu
import Idealize.ShloMosaic.Lib.Pipeline.Value

noncomputable section

open Idealize.ShloMosaic Idealize.ShloMosaic.TcCoe Idealize.SL.Sem
open Idealize.ShloMosaic.Pipeline (Dat)
open Idealize.ShloMosaic.ValueIdx

namespace Cert.KernelIdeal.Layer1

open Cert.KernelIdeal Cert.KernelIdeal.Gen

variable [hR : Cert.ReferenceIdeal.Facts₀]
variable (V : (c : Dev nD) → (b : Ref sig .tc) → Buf (Elt Ideal) ((c : Thread nD τ).loc b))

/-- The rectified product of the whole matrices, in the host's spelling. -/
abbrev whole (X : FVec Ideal Cert.ReferenceIdeal.S800000x128 .f32) (W : FVec Ideal Cert.ReferenceIdeal.S128x128 .f32) :
    FVec Ideal Cert.ReferenceIdeal.S800000x128 .f32 :=
  maximumf (Host.dotGeneral Cert.ReferenceIdeal.dot_S800000x128_S128x128_S800000x128_1_0_0_1_n_n none X W)
    (broadcastInDim Cert.ReferenceIdeal.S800000x128 ![] Cert.ReferenceIdeal.Facts₀.bcast_S_S800000x128
      (constant Cert.ReferenceIdeal.S_ .f32 0x00000000#32))

theorem whole_apply (X : FVec Ideal Cert.ReferenceIdeal.S800000x128 .f32) (W : FVec Ideal Cert.ReferenceIdeal.S128x128 .f32)
    (i : Fin 800000) (q : Fin 128) :
    whole X W (ix2 i q) = max (∑ k : Fin 128, X (ix2 i k) * W (ix2 k q)) 0 :=
  Cert.LinRelu.host_plain 800000 128 128 _ rfl X W _ i q

theorem body_apply (x : Vec Ideal S8000x128 .f32) (w : Vec Ideal S128x128 .f32) (p : Fin 8000) (q : Fin 128) :
    k1_pay1 x w (ix2 p q) = max (∑ k : Fin 128, x (ix2 p k) * w (ix2 k q)) 0 :=
  Cert.LinRelu.body_plain 8000 128 128 _ rfl x w _ _ _ p q

theorem hz : (![0, 0] : Fin 2 → Nat) = fun _ => 0 := funext fun a => by fin_cases a <;> rfl

/-- The index maps over the grid: the row windows move one block per point, the weight window stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The rows window's block at point t is rows 8000·t … of its array. -/
theorem rows_apply (c : Dev nD) (t : Fin cfg1.N) (p : Fin 8000) (k : Fin 128) (i : Fin 800000) (hi : i.val = 8000 * t.val + p.val) :
    (iblk1 V c 0 t : Vec Ideal S8000x128 .f32) (ix2 p k) = (V c main_v27 : Vec Ideal S800000x128 .f32) (ix2 i k) := by
  obtain ⟨e0, e1, -, -, -, -⟩ := idx_facts t
  unfold iblk1
  rw [View.read_apply]
  show V c main_v27 (((cfg1.win 0).blk t).view.emb (ix2 p k)) = V c main_v27 (ix2 i k)
  refine congrArg (V c main_v27) (funext fun a => Fin.ext ?_)
  match a with
  | ⟨0, _⟩ => show win1_0.index t (0 : Fin 2) * 8000 + 1 * p.val = i.val; rw [e0, hi]; omega
  | ⟨1, _⟩ => show win1_0.index t (1 : Fin 2) * 128 + 1 * k.val = k.val; rw [e1]; omega

/-- The weight window's block at every point is its whole array. -/
theorem weights_apply (c : Dev nD) (t : Fin cfg1.N) (k : Fin 128) (q : Fin 128) :
    (iblk1 V c 1 t : Vec Ideal S128x128 .f32) (ix2 k q) = (V c main_v28 : Vec Ideal S128x128 .f32) (ix2 k q) := by
  obtain ⟨-, -, e2, e3, -, -⟩ := idx_facts t
  unfold iblk1
  rw [View.read_apply]
  show V c main_v28 (((cfg1.win 1).blk t).view.emb (ix2 k q)) = V c main_v28 (ix2 k q)
  refine congrArg (V c main_v28) (funext fun a => Fin.ext ?_)
  match a with
  | ⟨0, _⟩ => show win1_1.index t (0 : Fin 2) * 128 + 1 * k.val = k.val; rw [e2]; omega
  | ⟨1, _⟩ => show win1_1.index t (1 : Fin 2) * 128 + 1 * q.val = q.val; rw [e3]; omega

/-- What point t writes back is its row block of the whole rectified product. -/
theorem flushed_eq (c : Dev nD) (t : Fin cfg1.N) :
    (dat1 V c).flushed 2 t = ((cfg1.win 2).blk t).view.read (Elt Ideal) (whole (V c main_v27) (V c main_v28)) := by
  show (cfg1.win 2).cut (grid1.coords t) ((dat1 V c).after 2 t) = _
  rw [after1_2]
  unfold out1_2
  rw [View.canon_unit_zero hz]
  simp only [View.ld_unit_zero (S := S8000x128) hz, View.ld_unit_zero (S := S128x128) hz]
  obtain ⟨-, -, -, -, e4, e5⟩ := idx_facts t
  funext y
  obtain ⟨p, q, rfl⟩ : ∃ (p : Fin 8000) (q : Fin 128), y = ix2 p q := ⟨y 0, y 1, eq_ix2 y⟩
  have hp : p.val < 8000 := p.isLt
  have ht : t.val < 100 := Nat.lt_of_lt_of_eq t.isLt N_1
  have hrow : 8000 * t.val + p.val < 800000 := by omega
  show k1_pay1 (iblk1 V c 0 t) (iblk1 V c 1 t) (ix2 p q) = whole (V c main_v27) (V c main_v28) (((cfg1.win 2).blk t).view.emb (ix2 p q))
  have hemb : ((cfg1.win 2).blk t).view.emb (ix2 p q) = (ix2 (⟨8000 * t.val + p.val, hrow⟩ : Fin 800000) q : S800000x128.Idx) := by
    funext a
    apply Fin.ext
    match a with
    | ⟨0, _⟩ => show win1_2.index t (0 : Fin 2) * 8000 + 1 * p.val = 8000 * t.val + p.val; rw [e4]; omega
    | ⟨1, _⟩ => show win1_2.index t (1 : Fin 2) * 128 + 1 * q.val = q.val; rw [e5]; omega
  rw [hemb, body_apply, whole_apply]
  refine congrArg (fun s => max s 0) (Finset.sum_congr rfl fun k _ => ?_)
  rw [rows_apply V c t p k ⟨8000 * t.val + p.val, hrow⟩ rfl, weights_apply V c t k q]

/-- An index of the result is in point t's block iff its row is in that block's range. -/
theorem mem_blk (t : Fin cfg1.N) (i : S800000x128.Idx) :
    i ∈ ((cfg1.win 2).blk t).view.set ↔ ∀ a : Fin 2, win1_2.index t a * S8000x128.size a ≤ (i a).val ∧ (i a).val < win1_2.index t a * S8000x128.size a + S8000x128.size a := by
  show i ∈ ((View.whole main_v29).slice (win1_2.rect t)).set ↔ _
  rw [View.set_slice_whole, Rect.mem_set_unit]
  exact Iff.rfl

/-- Row r lies in the block of point r / 8000. -/
theorem cover (i : S800000x128.Idx) : ∃ t : Fin cfg1.N, (cfg1.win 2).flush t = true ∧ i ∈ ((cfg1.win 2).blk t).view.set := by
  have h0 : (i 0).val < 800000 := (i 0).isLt
  have h1 : (i 1).val < 128 := (i 1).isLt
  have hN : cfg1.N = 100 := N_1
  refine ⟨⟨(i 0).val / 8000, by rw [hN]; omega⟩, flush1_2 _, ?_⟩
  rw [mem_blk]
  obtain ⟨-, -, -, -, e4, e5⟩ := idx_facts ⟨(i 0).val / 8000, by rw [hN]; omega⟩
  intro a
  match a with
  | ⟨0, _⟩ =>
    show win1_2.index _ (0 : Fin 2) * 8000 ≤ (i 0).val ∧ (i 0).val < win1_2.index _ (0 : Fin 2) * 8000 + 8000
    rw [e4]; show (i 0).val / 8000 * 8000 ≤ (i 0).val ∧ (i 0).val < (i 0).val / 8000 * 8000 + 8000; omega
  | ⟨1, _⟩ =>
    show win1_2.index _ (1 : Fin 2) * 128 ≤ (i 1).val ∧ (i 1).val < win1_2.index _ (1 : Fin 2) * 128 + 128
    rw [e5]; omega

/-- The array the call leaves: the rectified product of the two arrays it was entered with. -/
theorem final (c : Dev nD) : (dat1 V c).arrAt 2 cfg1.N = whole (V c main_v27) (V c main_v28) :=
  (dat1 V c).arrAt_eq_of_cover 2 (whole (V c main_v27) (V c main_v28)) (fun t _ => flushed_eq V c t) cover

end Cert.KernelIdeal.Layer1

end
-- ==== Proof.Layer2.lean ====
/-
  The second message-passing step's linear layer.  The call's grid has one hundred points; point t takes rows 8000·t … 8000·t + 7999 of its left
  array X (128 columns) and the whole of its right array W (128 × 128), and writes rows 8000·t … 8000·t + 7999 of the
  result.  Element (p, q) of what point t writes is  max (∑ₖ X[8000·t + p, k] · W[k, q]) 0,  which is element
  (8000·t + p, q) of the rectified product of the WHOLE arrays; the row blocks cover all 800000 rows, so the array
  the call leaves is that rectified product — the host's contraction followed by a maximum with zero, read on the
  same two arrays.
-/
import proofs.«180403_j11158325035420_1_alg».proof.Proof.Gen.KernelIdeal.Frame
import proofs.«180403_j11158325035420_1_alg».proof.ReferenceIdeal
import proofs.«180403_j11158325035420_1_alg».proof.Proof.LibLinRelu
import Idealize.ShloMosaic.Lib.Pipeline.Value

noncomputable section

open Idealize.ShloMosaic Idealize.ShloMosaic.TcCoe Idealize.SL.Sem
open Idealize.ShloMosaic.Pipeline (Dat)
open Idealize.ShloMosaic.ValueIdx

namespace Cert.KernelIdeal.Layer2

open Cert.KernelIdeal Cert.KernelIdeal.Gen

variable [hR : Cert.ReferenceIdeal.Facts₀]
variable (V : (c : Dev nD) → (b : Ref sig .tc) → Buf (Elt Ideal) ((c : Thread nD τ).loc b))

/-- The rectified product of the whole matrices, in the host's spelling. -/
abbrev whole (X : FVec Ideal Cert.ReferenceIdeal.S800000x128 .f32) (W : FVec Ideal Cert.ReferenceIdeal.S128x128 .f32) :
    FVec Ideal Cert.ReferenceIdeal.S800000x128 .f32 :=
  maximumf (Host.dotGeneral Cert.ReferenceIdeal.dot_S800000x128_S128x128_S800000x128_1_0_0_1_n_n none X W)
    (broadcastInDim Cert.ReferenceIdeal.S800000x128 ![] Cert.ReferenceIdeal.Facts₀.bcast_S_S800000x128
      (constant Cert.ReferenceIdeal.S_ .f32 0x00000000#32))

theorem whole_apply (X : FVec Ideal Cert.ReferenceIdeal.S800000x128 .f32) (W : FVec Ideal Cert.ReferenceIdeal.S128x128 .f32)
    (i : Fin 800000) (q : Fin 128) :
    whole X W (ix2 i q) = max (∑ k : Fin 128, X (ix2 i k) * W (ix2 k q)) 0 :=
  Cert.LinRelu.host_plain 800000 128 128 _ rfl X W _ i q

theorem body_apply (x : Vec Ideal S8000x128 .f32) (w : Vec Ideal S128x128 .f32) (p : Fin 8000) (q : Fin 128) :
    k2_pay1 x w (ix2 p q) = max (∑ k : Fin 128, x (ix2 p k) * w (ix2 k q)) 0 :=
  Cert.LinRelu.body_plain 8000 128 128 _ rfl x w _ _ _ p q

theorem hz : (![0, 0] : Fin 2 → Nat) = fun _ => 0 := funext fun a => by fin_cases a <;> rfl

/-- The index maps over the grid: the row windows move one block per point, the weight window stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The rows window's block at point t is rows 8000·t … of its array. -/
theorem rows_apply (c : Dev nD) (t : Fin cfg2.N) (p : Fin 8000) (k : Fin 128) (i : Fin 800000) (hi : i.val = 8000 * t.val + p.val) :
    (iblk2 V c 0 t : Vec Ideal S8000x128 .f32) (ix2 p k) = (V c main_v47 : Vec Ideal S800000x128 .f32) (ix2 i k) := by
  obtain ⟨e0, e1, -, -, -, -⟩ := idx_facts t
  unfold iblk2
  rw [View.read_apply]
  show V c main_v47 (((cfg2.win 0).blk t).view.emb (ix2 p k)) = V c main_v47 (ix2 i k)
  refine congrArg (V c main_v47) (funext fun a => Fin.ext ?_)
  match a with
  | ⟨0, _⟩ => show win2_0.index t (0 : Fin 2) * 8000 + 1 * p.val = i.val; rw [e0, hi]; omega
  | ⟨1, _⟩ => show win2_0.index t (1 : Fin 2) * 128 + 1 * k.val = k.val; rw [e1]; omega

/-- The weight window's block at every point is its whole array. -/
theorem weights_apply (c : Dev nD) (t : Fin cfg2.N) (k : Fin 128) (q : Fin 128) :
    (iblk2 V c 1 t : Vec Ideal S128x128 .f32) (ix2 k q) = (V c main_v48 : Vec Ideal S128x128 .f32) (ix2 k q) := by
  obtain ⟨-, -, e2, e3, -, -⟩ := idx_facts t
  unfold iblk2
  rw [View.read_apply]
  show V c main_v48 (((cfg2.win 1).blk t).view.emb (ix2 k q)) = V c main_v48 (ix2 k q)
  refine congrArg (V c main_v48) (funext fun a => Fin.ext ?_)
  match a with
  | ⟨0, _⟩ => show win2_1.index t (0 : Fin 2) * 128 + 1 * k.val = k.val; rw [e2]; omega
  | ⟨1, _⟩ => show win2_1.index t (1 : Fin 2) * 128 + 1 * q.val = q.val; rw [e3]; omega

/-- What point t writes back is its row block of the whole rectified product. -/
theorem flushed_eq (c : Dev nD) (t : Fin cfg2.N) :
    (dat2 V c).flushed 2 t = ((cfg2.win 2).blk t).view.read (Elt Ideal) (whole (V c main_v47) (V c main_v48)) := by
  show (cfg2.win 2).cut (grid2.coords t) ((dat2 V c).after 2 t) = _
  rw [after2_2]
  unfold out2_2
  rw [View.canon_unit_zero hz]
  simp only [View.ld_unit_zero (S := S8000x128) hz, View.ld_unit_zero (S := S128x128) hz]
  obtain ⟨-, -, -, -, e4, e5⟩ := idx_facts t
  funext y
  obtain ⟨p, q, rfl⟩ : ∃ (p : Fin 8000) (q : Fin 128), y = ix2 p q := ⟨y 0, y 1, eq_ix2 y⟩
  have hp : p.val < 8000 := p.isLt
  have ht : t.val < 100 := Nat.lt_of_lt_of_eq t.isLt N_2
  have hrow : 8000 * t.val + p.val < 800000 := by omega
  show k2_pay1 (iblk2 V c 0 t) (iblk2 V c 1 t) (ix2 p q) = whole (V c main_v47) (V c main_v48) (((cfg2.win 2).blk t).view.emb (ix2 p q))
  have hemb : ((cfg2.win 2).blk t).view.emb (ix2 p q) = (ix2 (⟨8000 * t.val + p.val, hrow⟩ : Fin 800000) q : S800000x128.Idx) := by
    funext a
    apply Fin.ext
    match a with
    | ⟨0, _⟩ => show win2_2.index t (0 : Fin 2) * 8000 + 1 * p.val = 8000 * t.val + p.val; rw [e4]; omega
    | ⟨1, _⟩ => show win2_2.index t (1 : Fin 2) * 128 + 1 * q.val = q.val; rw [e5]; omega
  rw [hemb, body_apply, whole_apply]
  refine congrArg (fun s => max s 0) (Finset.sum_congr rfl fun k _ => ?_)
  rw [rows_apply V c t p k ⟨8000 * t.val + p.val, hrow⟩ rfl, weights_apply V c t k q]

/-- An index of the result is in point t's block iff its row is in that block's range. -/
theorem mem_blk (t : Fin cfg2.N) (i : S800000x128.Idx) :
    i ∈ ((cfg2.win 2).blk t).view.set ↔ ∀ a : Fin 2, win2_2.index t a * S8000x128.size a ≤ (i a).val ∧ (i a).val < win2_2.index t a * S8000x128.size a + S8000x128.size a := by
  show i ∈ ((View.whole main_v49).slice (win2_2.rect t)).set ↔ _
  rw [View.set_slice_whole, Rect.mem_set_unit]
  exact Iff.rfl

/-- Row r lies in the block of point r / 8000. -/
theorem cover (i : S800000x128.Idx) : ∃ t : Fin cfg2.N, (cfg2.win 2).flush t = true ∧ i ∈ ((cfg2.win 2).blk t).view.set := by
  have h0 : (i 0).val < 800000 := (i 0).isLt
  have h1 : (i 1).val < 128 := (i 1).isLt
  have hN : cfg2.N = 100 := N_2
  refine ⟨⟨(i 0).val / 8000, by rw [hN]; omega⟩, flush2_2 _, ?_⟩
  rw [mem_blk]
  obtain ⟨-, -, -, -, e4, e5⟩ := idx_facts ⟨(i 0).val / 8000, by rw [hN]; omega⟩
  intro a
  match a with
  | ⟨0, _⟩ =>
    show win2_2.index _ (0 : Fin 2) * 8000 ≤ (i 0).val ∧ (i 0).val < win2_2.index _ (0 : Fin 2) * 8000 + 8000
    rw [e4]; show (i 0).val / 8000 * 8000 ≤ (i 0).val ∧ (i 0).val < (i 0).val / 8000 * 8000 + 8000; omega
  | ⟨1, _⟩ =>
    show win2_2.index _ (1 : Fin 2) * 128 ≤ (i 1).val ∧ (i 1).val < win2_2.index _ (1 : Fin 2) * 128 + 128
    rw [e5]; omega

/-- The array the call leaves: the rectified product of the two arrays it was entered with. -/
theorem final (c : Dev nD) : (dat2 V c).arrAt 2 cfg2.N = whole (V c main_v47) (V c main_v48) :=
  (dat2 V c).arrAt_eq_of_cover 2 (whole (V c main_v47) (V c main_v48)) (fun t _ => flushed_eq V c t) cover

end Cert.KernelIdeal.Layer2

end
-- ==== Proof.Layer3.lean ====
/-
  The node read-out layer.  The call's grid has ten points; point t takes rows 5000·t … 5000·t + 4999 of its left
  array X (261 columns) and the whole of its right array W (261 × 128), and writes rows 5000·t … 5000·t + 4999 of the
  result.  Element (p, q) of what point t writes is  max (∑ₖ X[5000·t + p, k] · W[k, q]) 0,  which is element
  (5000·t + p, q) of the rectified product of the WHOLE arrays; the row blocks cover all 50000 rows, so the array
  the call leaves is that rectified product — the host's contraction followed by a maximum with zero, read on the
  same two arrays.
-/
import proofs.«180403_j11158325035420_1_alg».proof.Proof.Gen.KernelIdeal.Frame
import proofs.«180403_j11158325035420_1_alg».proof.ReferenceIdeal
import proofs.«180403_j11158325035420_1_alg».proof.Proof.LibLinRelu
import Idealize.ShloMosaic.Lib.Pipeline.Value

noncomputable section

open Idealize.ShloMosaic Idealize.ShloMosaic.TcCoe Idealize.SL.Sem
open Idealize.ShloMosaic.Pipeline (Dat)
open Idealize.ShloMosaic.ValueIdx

namespace Cert.KernelIdeal.Layer3

open Cert.KernelIdeal Cert.KernelIdeal.Gen

variable [hR : Cert.ReferenceIdeal.Facts₀]
variable (V : (c : Dev nD) → (b : Ref sig .tc) → Buf (Elt Ideal) ((c : Thread nD τ).loc b))

/-- The rectified product of the whole matrices, in the host's spelling. -/
abbrev whole (X : FVec Ideal Cert.ReferenceIdeal.S50000x261 .f32) (W : FVec Ideal Cert.ReferenceIdeal.S261x128 .f32) :
    FVec Ideal Cert.ReferenceIdeal.S50000x128 .f32 :=
  maximumf (Host.dotGeneral Cert.ReferenceIdeal.dot_S50000x261_S261x128_S50000x128_1_0_0_1_n_n none X W)
    (broadcastInDim Cert.ReferenceIdeal.S50000x128 ![] Cert.ReferenceIdeal.Facts₀.bcast_S_S50000x128
      (constant Cert.ReferenceIdeal.S_ .f32 0x00000000#32))

theorem whole_apply (X : FVec Ideal Cert.ReferenceIdeal.S50000x261 .f32) (W : FVec Ideal Cert.ReferenceIdeal.S261x128 .f32)
    (i : Fin 50000) (q : Fin 128) :
    whole X W (ix2 i q) = max (∑ k : Fin 261, X (ix2 i k) * W (ix2 k q)) 0 :=
  Cert.LinRelu.host_plain 50000 261 128 _ rfl X W _ i q

theorem body_apply (x : Vec Ideal S5000x261 .f32) (w : Vec Ideal S261x128 .f32) (p : Fin 5000) (q : Fin 128) :
    k3_pay1 x w (ix2 p q) = max (∑ k : Fin 261, x (ix2 p k) * w (ix2 k q)) 0 :=
  Cert.LinRelu.body_plain 5000 261 128 _ rfl x w _ _ _ p q

theorem hz : (![0, 0] : Fin 2 → Nat) = fun _ => 0 := funext fun a => by fin_cases a <;> rfl

/-- The index maps over the grid: the row windows move one block per point, the weight window stays. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The rows window's block at point t is rows 5000·t … of its array. -/
theorem rows_apply (c : Dev nD) (t : Fin cfg3.N) (p : Fin 5000) (k : Fin 261) (i : Fin 50000) (hi : i.val = 5000 * t.val + p.val) :
    (iblk3 V c 0 t : Vec Ideal S5000x261 .f32) (ix2 p k) = (V c main_v53 : Vec Ideal S50000x261 .f32) (ix2 i k) := by
  obtain ⟨e0, e1, -, -, -, -⟩ := idx_facts t
  unfold iblk3
  rw [View.read_apply]
  show V c main_v53 (((cfg3.win 0).blk t).view.emb (ix2 p k)) = V c main_v53 (ix2 i k)
  refine congrArg (V c main_v53) (funext fun a => Fin.ext ?_)
  match a with
  | ⟨0, _⟩ => show win3_0.index t (0 : Fin 2) * 5000 + 1 * p.val = i.val; rw [e0, hi]; omega
  | ⟨1, _⟩ => show win3_0.index t (1 : Fin 2) * 261 + 1 * k.val = k.val; rw [e1]; omega

/-- The weight window's block at every point is its whole array. -/
theorem weights_apply (c : Dev nD) (t : Fin cfg3.N) (k : Fin 261) (q : Fin 128) :
    (iblk3 V c 1 t : Vec Ideal S261x128 .f32) (ix2 k q) = (V c main_v54 : Vec Ideal S261x128 .f32) (ix2 k q) := by
  obtain ⟨-, -, e2, e3, -, -⟩ := idx_facts t
  unfold iblk3
  rw [View.read_apply]
  show V c main_v54 (((cfg3.win 1).blk t).view.emb (ix2 k q)) = V c main_v54 (ix2 k q)
  refine congrArg (V c main_v54) (funext fun a => Fin.ext ?_)
  match a with
  | ⟨0, _⟩ => show win3_1.index t (0 : Fin 2) * 261 + 1 * k.val = k.val; rw [e2]; omega
  | ⟨1, _⟩ => show win3_1.index t (1 : Fin 2) * 128 + 1 * q.val = q.val; rw [e3]; omega

/-- What point t writes back is its row block of the whole rectified product. -/
theorem flushed_eq (c : Dev nD) (t : Fin cfg3.N) :
    (dat3 V c).flushed 2 t = ((cfg3.win 2).blk t).view.read (Elt Ideal) (whole (V c main_v53) (V c main_v54)) := by
  show (cfg3.win 2).cut (grid3.coords t) ((dat3 V c).after 2 t) = _
  rw [after3_2]
  unfold out3_2
  rw [View.canon_unit_zero hz]
  simp only [View.ld_unit_zero (S := S5000x261) hz, View.ld_unit_zero (S := S261x128) hz]
  obtain ⟨-, -, -, -, e4, e5⟩ := idx_facts t
  funext y
  obtain ⟨p, q, rfl⟩ : ∃ (p : Fin 5000) (q : Fin 128), y = ix2 p q := ⟨y 0, y 1, eq_ix2 y⟩
  have hp : p.val < 5000 := p.isLt
  have ht : t.val < 10 := Nat.lt_of_lt_of_eq t.isLt N_3
  have hrow : 5000 * t.val + p.val < 50000 := by omega
  show k3_pay1 (iblk3 V c 0 t) (iblk3 V c 1 t) (ix2 p q) = whole (V c main_v53) (V c main_v54) (((cfg3.win 2).blk t).view.emb (ix2 p q))
  have hemb : ((cfg3.win 2).blk t).view.emb (ix2 p q) = (ix2 (⟨5000 * t.val + p.val, hrow⟩ : Fin 50000) q : S50000x128.Idx) := by
    funext a
    apply Fin.ext
    match a with
    | ⟨0, _⟩ => show win3_2.index t (0 : Fin 2) * 5000 + 1 * p.val = 5000 * t.val + p.val; rw [e4]; omega
    | ⟨1, _⟩ => show win3_2.index t (1 : Fin 2) * 128 + 1 * q.val = q.val; rw [e5]; omega
  rw [hemb, body_apply, whole_apply]
  refine congrArg (fun s => max s 0) (Finset.sum_congr rfl fun k _ => ?_)
  rw [rows_apply V c t p k ⟨5000 * t.val + p.val, hrow⟩ rfl, weights_apply V c t k q]

/-- An index of the result is in point t's block iff its row is in that block's range. -/
theorem mem_blk (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v55).slice (win3_2.rect t)).set ↔ _
  rw [View.set_slice_whole, Rect.mem_set_unit]
  exact Iff.rfl

/-- Row r lies in the block of point r / 5000. -/
theorem cover (i : S50000x128.Idx) : ∃ t : Fin cfg3.N, (cfg3.win 2).flush t = true ∧ i ∈ ((cfg3.win 2).blk t).view.set := by
  have h0 : (i 0).val < 50000 := (i 0).isLt
  have h1 : (i 1).val < 128 := (i 1).isLt
  have hN : cfg3.N = 10 := N_3
  refine ⟨⟨(i 0).val / 5000, by rw [hN]; omega⟩, flush3_2 _, ?_⟩
  rw [mem_blk]
  obtain ⟨-, -, -, -, e4, e5⟩ := idx_facts ⟨(i 0).val / 5000, by rw [hN]; omega⟩
  intro a
  match a with
  | ⟨0, _⟩ =>
    show win3_2.index _ (0 : Fin 2) * 5000 ≤ (i 0).val ∧ (i 0).val < win3_2.index _ (0 : Fin 2) * 5000 + 5000
    rw [e4]; show (i 0).val / 5000 * 5000 ≤ (i 0).val ∧ (i 0).val < (i 0).val / 5000 * 5000 + 5000; omega
  | ⟨1, _⟩ =>
    show win3_2.index _ (1 : Fin 2) * 128 ≤ (i 1).val ∧ (i 1).val < win3_2.index _ (1 : Fin 2) * 128 + 128
    rw [e5]; omega

/-- The array the call leaves: the rectified product of the two arrays it was entered with. -/
theorem final (c : Dev nD) : (dat3 V c).arrAt 2 cfg3.N = whole (V c main_v53) (V c main_v54) :=
  (dat3 V c).arrAt_eq_of_cover 2 (whole (V c main_v53) (V c main_v54)) (fun t _ => flushed_eq V c t) cover

end Cert.KernelIdeal.Layer3

end
-- ==== Proof.Stages.lean ====
/-
  The kernel program's result, read back through its eight segments.  Each call leaves the rectified product of the
  two arrays it was entered with (the layer modules); each stretch of host operations between two calls computes
  those arrays from the arguments and from the call before it — the atoms' features gathered at the edges' sources and
  joined with the bonds', the node sums gathered back and the reverse edges' states subtracted, the node sums joined
  to the atoms' features, and the weight matrices transposed — in the very operations the host program applies.  The
  arguments are never written, so every stretch reads them as they were launched.
-/
import proofs.«180403_j11158325035420_1_alg».proof.Proof.Gen.KernelIdeal.Frame
import proofs.«180403_j11158325035420_1_alg».proof.Proof.Gen.ReferenceIdeal
import proofs.«180403_j11158325035420_1_alg».proof.Proof.Spec
import proofs.«180403_j11158325035420_1_alg».proof.Proof.Layer0
import proofs.«180403_j11158325035420_1_alg».proof.Proof.Layer1
import proofs.«180403_j11158325035420_1_alg».proof.Proof.Layer2
import proofs.«180403_j11158325035420_1_alg».proof.Proof.Layer3
import Idealize.ShloMosaic.Lib.StableHlo.Run

noncomputable section

namespace Cert.KernelIdeal.Stages

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The arguments at the boundaries the later stretches read them at -/

theorem W2_arg3 (c : Dev nD) : W2 m ρ c (Proc.devRef .tc main_arg3) = m ((c.tc : Thread nD τ).loc main_arg3) := by
  rw [W2_of_ne m ρ c main_arg3 (by decide)]
  show StableHlo.after hostOps0 (W0 m ρ c) (Proc.devRef .tc main_arg3) = _
  after_results <;> rfl

theorem W2_arg5 (c : Dev nD) : W2 m ρ c (Proc.devRef .tc main_arg5) = m ((c.tc : Thread nD τ).loc main_arg5) := by
  rw [W2_of_ne m ρ c main_arg5 (by decide)]
  show StableHlo.after hostOps0 (W0 m ρ c) (Proc.devRef .tc main_arg5) = _
  after_results <;> rfl

theorem W2_arg6 (c : Dev nD) : W2 m ρ c (Proc.devRef .tc main_arg6) = m ((c.tc : Thread nD τ).loc main_arg6) := by
  rw [W2_of_ne m ρ c main_arg6 (by decide)]
  show StableHlo.after hostOps0 (W0 m ρ c) (Proc.devRef .tc main_arg6) = _
  after_results <;> rfl

theorem W2_arg7 (c : Dev nD) : W2 m ρ c (Proc.devRef .tc main_arg7) = m ((c.tc : Thread nD τ).loc main_arg7) := by
  rw [W2_of_ne m ρ c main_arg7 (by decide)]
  show StableHlo.after hostOps0 (W0 m ρ c) (Proc.devRef .tc main_arg7) = _
  after_results <;> rfl

theorem W2_arg0 (c : Dev nD) : W2 m ρ c (Proc.devRef .tc main_arg0) = m ((c.tc : Thread nD τ).loc main_arg0) := by
  rw [W2_of_ne m ρ c main_arg0 (by decide)]
  show StableHlo.after hostOps0 (W0 m ρ c) (Proc.devRef .tc main_arg0) = _
  after_results <;> rfl

theorem W2_arg4 (c : Dev nD) : W2 m ρ c (Proc.devRef .tc main_arg4) = m ((c.tc : Thread nD τ).loc main_arg4) := by
  rw [W2_of_ne m ρ c main_arg4 (by decide)]
  show StableHlo.after hostOps0 (W0 m ρ c) (Proc.devRef .tc main_arg4) = _
  after_results <;> rfl

theorem W4_arg3 (c : Dev nD) : W4 m ρ c (Proc.devRef .tc main_arg3) = m ((c.tc : Thread nD τ).loc main_arg3) := by
  rw [W4_of_ne m ρ c main_arg3 (by decide)]
  show StableHlo.after hostOps1 (W2 m ρ c) (Proc.devRef .tc main_arg3) = _
  after_results <;> exact W2_arg3 m ρ c

theorem W4_arg5 (c : Dev nD) : W4 m ρ c (Proc.devRef .tc main_arg5) = m ((c.tc : Thread nD τ).loc main_arg5) := by
  rw [W4_of_ne m ρ c main_arg5 (by decide)]
  show StableHlo.after hostOps1 (W2 m ρ c) (Proc.devRef .tc main_arg5) = _
  after_results <;> exact W2_arg5 m ρ c

theorem W4_arg6 (c : Dev nD) : W4 m ρ c (Proc.devRef .tc main_arg6) = m ((c.tc : Thread nD τ).loc main_arg6) := by
  rw [W4_of_ne m ρ c main_arg6 (by decide)]
  show StableHlo.after hostOps1 (W2 m ρ c) (Proc.devRef .tc main_arg6) = _
  after_results <;> exact W2_arg6 m ρ c

theorem W4_arg7 (c : Dev nD) : W4 m ρ c (Proc.devRef .tc main_arg7) = m ((c.tc : Thread nD τ).loc main_arg7) := by
  rw [W4_of_ne m ρ c main_arg7 (by decide)]
  show StableHlo.after hostOps1 (W2 m ρ c) (Proc.devRef .tc main_arg7) = _
  after_results <;> exact W2_arg7 m ρ c

theorem W4_arg0 (c : Dev nD) : W4 m ρ c (Proc.devRef .tc main_arg0) = m ((c.tc : Thread nD τ).loc main_arg0) := by
  rw [W4_of_ne m ρ c main_arg0 (by decide)]
  show StableHlo.after hostOps1 (W2 m ρ c) (Proc.devRef .tc main_arg0) = _
  after_results <;> exact W2_arg0 m ρ c

theorem W4_arg4 (c : Dev nD) : W4 m ρ c (Proc.devRef .tc main_arg4) = m ((c.tc : Thread nD τ).loc main_arg4) := by
  rw [W4_of_ne m ρ c main_arg4 (by decide)]
  show StableHlo.after hostOps1 (W2 m ρ c) (Proc.devRef .tc main_arg4) = _
  after_results <;> exact W2_arg4 m ρ c

theorem W6_arg0 (c : Dev nD) : W6 m ρ c (Proc.devRef .tc main_arg0) = m ((c.tc : Thread nD τ).loc main_arg0) := by
  rw [W6_of_ne m ρ c main_arg0 (by decide)]
  show StableHlo.after hostOps2 (W4 m ρ c) (Proc.devRef .tc main_arg0) = _
  after_results <;> exact W4_arg0 m ρ c

theorem W6_arg4 (c : Dev nD) : W6 m ρ c (Proc.devRef .tc main_arg4) = m ((c.tc : Thread nD τ).loc main_arg4) := by
  rw [W6_of_ne m ρ c main_arg4 (by decide)]
  show StableHlo.after hostOps2 (W4 m ρ c) (Proc.devRef .tc main_arg4) = _
  after_results <;> exact W4_arg4 m ρ c

theorem W6_arg6 (c : Dev nD) : W6 m ρ c (Proc.devRef .tc main_arg6) = m ((c.tc : Thread nD τ).loc main_arg6) := by
  rw [W6_of_ne m ρ c main_arg6 (by decide)]
  show StableHlo.after hostOps2 (W4 m ρ c) (Proc.devRef .tc main_arg6) = _
  after_results <;> exact W4_arg6 m ρ c

/-! ## The first edge states -/

set_option maxHeartbeats 1000000 in
/-- The first call is entered with the edges' input features … -/
theorem entry0_rows (c : Dev nD) :
    V1 m ρ c main_v7 = Cert.Spec.edgeIn (m ((c.tc : Thread nD τ).loc main_arg0)) (m ((c.tc : Thread nD τ).loc main_arg1)) (m ((c.tc : Thread nD τ).loc main_arg5)) := by
  show StableHlo.after hostOps0 (W0 m ρ c) (Proc.devRef .tc main_v7) = _
  after_results
  rfl

/-- … and the transposed input weights. -/
theorem entry0_weights (c : Dev nD) :
    V1 m ρ c main_v8 = transpose Cert.ReferenceIdeal.S147x128 [1, 0] (m ((c.tc : Thread nD τ).loc main_arg2)) Cert.ReferenceIdeal.Facts₀.transposes_S128x147_S147x128_1_0 := by
  show StableHlo.after hostOps0 (W0 m ρ c) (Proc.devRef .tc main_v8) = _
  after_results <;> rfl

theorem state0 (c : Dev nD) :
    W2 m ρ c (Proc.devRef .tc main_v9) = Cert.Spec.edge0 (m ((c.tc : Thread nD τ).loc main_arg0)) (m ((c.tc : Thread nD τ).loc main_arg1)) (m ((c.tc : Thread nD τ).loc main_arg2)) (m ((c.tc : Thread nD τ).loc main_arg5)) := by
  refine (W2_arr m ρ c 2).trans ((Layer0.final (V1 m ρ) c).trans ?_)
  rw [entry0_rows, entry0_weights]
  rfl

/-! ## The first message-passing step -/

set_option maxHeartbeats 1000000 in
theorem entry1_rows (c : Dev nD) :
    V3 m ρ c main_v27 = Cert.Spec.messages (m ((c.tc : Thread nD τ).loc main_arg5)) (m ((c.tc : Thread nD τ).loc main_arg6)) (m ((c.tc : Thread nD τ).loc main_arg7)) (W2 m ρ c (Proc.devRef .tc main_v9)) := by
  show StableHlo.after hostOps1 (W2 m ρ c) (Proc.devRef .tc main_v27) = _
  after_results
  rw [W2_arg5, W2_arg6, W2_arg7]
  rfl

theorem entry1_weights (c : Dev nD) :
    V3 m ρ c main_v28 = transpose Cert.ReferenceIdeal.S128x128 [1, 0] (m ((c.tc : Thread nD τ).loc main_arg3)) Cert.ReferenceIdeal.Facts₀.transposes_S128x128_S128x128_1_0 := by
  show StableHlo.after hostOps1 (W2 m ρ c) (Proc.devRef .tc main_v28) = _
  after_results
  rw [W2_arg3]

theorem state1 (c : Dev nD) :
    W4 m ρ c (Proc.devRef .tc main_v29) = Cert.Spec.step (m ((c.tc : Thread nD τ).loc main_arg3)) (m ((c.tc : Thread nD τ).loc main_arg5)) (m ((c.tc : Thread nD τ).loc main_arg6)) (m ((c.tc : Thread nD τ).loc main_arg7)) (W2 m ρ c (Proc.devRef .tc main_v9)) := by
  refine (W4_arr m ρ c 2).trans ((Layer1.final (V3 m ρ) c).trans ?_)
  rw [entry1_rows, entry1_weights]
  rfl

/-! ## The second message-passing step -/

set_option maxHeartbeats 1000000 in
theorem entry2_rows (c : Dev nD) :
    V5 m ρ c main_v47 = Cert.Spec.messages (m ((c.tc : Thread nD τ).loc main_arg5)) (m ((c.tc : Thread nD τ).loc main_arg6)) (m ((c.tc : Thread nD τ).loc main_arg7)) (W4 m ρ c (Proc.devRef .tc main_v29)) := by
  show StableHlo.after hostOps2 (W4 m ρ c) (Proc.devRef .tc main_v47) = _
  after_results
  rw [W4_arg5, W4_arg6, W4_arg7]
  rfl

theorem entry2_weights (c : Dev nD) :
    V5 m ρ c main_v48 = transpose Cert.ReferenceIdeal.S128x128 [1, 0] (m ((c.tc : Thread nD τ).loc main_arg3)) Cert.ReferenceIdeal.Facts₀.transposes_S128x128_S128x128_1_0 := by
  show StableHlo.after hostOps2 (W4 m ρ c) (Proc.devRef .tc main_v48) = _
  after_results
  rw [W4_arg3]

theorem state2 (c : Dev nD) :
    W6 m ρ c (Proc.devRef .tc main_v49) = Cert.Spec.step (m ((c.tc : Thread nD τ).loc main_arg3)) (m ((c.tc : Thread nD τ).loc main_arg5)) (m ((c.tc : Thread nD τ).loc main_arg6)) (m ((c.tc : Thread nD τ).loc main_arg7)) (W4 m ρ c (Proc.devRef .tc main_v29)) := by
  refine (W6_arr m ρ c 2).trans ((Layer2.final (V5 m ρ) c).trans ?_)
  rw [entry2_rows, entry2_weights]
  rfl

/-! ## The read-out -/

set_option maxHeartbeats 1000000 in
theorem entry3_rows (c : Dev nD) :
    V7 m ρ c main_v53 = Cert.Spec.nodeIn (m ((c.tc : Thread nD τ).loc main_arg0)) (m ((c.tc : Thread nD τ).loc main_arg6)) (W6 m ρ c (Proc.devRef .tc main_v49)) := by
  show StableHlo.after hostOps3 (W6 m ρ c) (Proc.devRef .tc main_v53) = _
  after_results
  rw [W6_arg0, W6_arg6]
  rfl

theorem entry3_weights (c : Dev nD) :
    V7 m ρ c main_v54 = transpose Cert.ReferenceIdeal.S261x128 [1, 0] (m ((c.tc : Thread nD τ).loc main_arg4)) Cert.ReferenceIdeal.Facts₀.transposes_S128x261_S261x128_1_0 := by
  show StableHlo.after hostOps3 (W6 m ρ c) (Proc.devRef .tc main_v54) = _
  after_results
  rw [W6_arg4]

theorem state3 (c : Dev nD) :
    W8 m ρ c (Proc.devRef .tc main_v55) = Cert.Spec.readout (m ((c.tc : Thread nD τ).loc main_arg0)) (m ((c.tc : Thread nD τ).loc main_arg4)) (m ((c.tc : Thread nD τ).loc main_arg6)) (W6 m ρ c (Proc.devRef .tc main_v49)) := by
  refine (W8_arr m ρ c 2).trans ((Layer3.final (V7 m ρ) c).trans ?_)
  rw [entry3_rows, entry3_weights]
  rfl

/-- The result array ends at the network of the arguments. -/
theorem result (c : Dev nD) :
    W8 m ρ c (Proc.devRef .tc main_v55) = Cert.Spec.network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [state3, state2, state1, state0]
  rfl

end Cert.KernelIdeal.Stages

end
-- ==== Proof.RefSpec.lean ====
/-
  The host program's result is the network of the specification: its composed term IS that function of the eight
  arguments, operation for operation — the same gathers, sums into nodes, joins, transposes, contractions and
  maxima with zero, in the same order — so the two are one term once the specification's names are unfolded.
-/
import proofs.«180403_j11158325035420_1_alg».proof.Proof.Gen.ReferenceIdeal.Run
import proofs.«180403_j11158325035420_1_alg».proof.Proof.Spec
import Idealize.ShloMosaic.PureOps.Ideal

noncomputable section

namespace Cert.ReferenceIdeal.Bridge

open Cert.ReferenceIdeal Cert.ReferenceIdeal.Gen Idealize.ShloMosaic Idealize.ShloMosaic.TcCoe Idealize.SL.Sem

set_option maxRecDepth 16384 in
theorem result_eq (m : (ℓ : Loc nD τ sig) → Buf (Elt Ideal) ℓ) (c : Dev nD) :
    Cert.ReferenceIdeal.Value.res_main_v59 (F := Ideal) m c
      = Cert.Spec.network (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  unfold Cert.ReferenceIdeal.Value.res_main_v59 Cert.Spec.network Cert.Spec.readout Cert.Spec.step Cert.Spec.edge0
    Cert.Spec.lin261 Cert.Spec.lin128 Cert.Spec.lin147 Cert.Spec.nodeIn Cert.Spec.messages Cert.Spec.edgeIn Cert.Spec.nodeSum
    Cert.Spec.nodeAt Cert.Spec.edgeAt
  rfl

end Cert.ReferenceIdeal.Bridge

end
-- ==== Proof.lean ====
/-
  Both programs compute one network.  The host program applies, in order, a gather of the atoms' features at the edges'
  sources, a join with the bonds' features, and three times a contraction with a transposed weight matrix followed by a
  maximum with zero, with the edge states summed into their destination nodes, gathered back and the reverse edges'
  states subtracted between them; the last contraction is over the nodes.  The kernel program replaces each
  contraction-and-maximum by a call that computes it one block of rows at a time; over exact values a row block of the
  rectified product of the whole matrices is the rectified product of that row block, so each call leaves what the
  host's two operations leave, and every operation between the calls is the host's own.  No law of the extended reals
  beyond reading a sum term by term is used: both sides form the same sums of the same products, and the inputs'
  finiteness is not needed.
-/
import proofs.«180403_j11158325035420_1_alg».proof.Defs
import proofs.«180403_j11158325035420_1_alg».proof.Proof.Gen.Kernel
import proofs.«180403_j11158325035420_1_alg».proof.Proof.Gen.Kernel.Frame
import proofs.«180403_j11158325035420_1_alg».proof.Proof.Gen.KernelIdeal
import proofs.«180403_j11158325035420_1_alg».proof.Proof.Gen.KernelIdeal.Frame
import proofs.«180403_j11158325035420_1_alg».proof.Proof.Gen.ReferenceIdeal
import proofs.«180403_j11158325035420_1_alg».proof.Proof.Gen.ReferenceIdeal.Run
import proofs.«180403_j11158325035420_1_alg».proof.Proof.Gen.Pre_finite_inputs
import proofs.«180403_j11158325035420_1_alg».proof.Proof.KernelRun
import proofs.«180403_j11158325035420_1_alg».proof.Proof.Stages
import proofs.«180403_j11158325035420_1_alg».proof.Proof.RefSpec
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

/-- The host program's run with its result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both runs end with the result at the network of those arguments. -/
theorem algebraic : Cert.algebraic_KernelIdeal_ReferenceIdeal := by
  intro m ρ m' ρ' _ hagree
  refine ⟨_, Cert.KernelIdeal.Result.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Bridge.result_eq, Cert.KernelIdeal.Stages.result]
  obtain ⟨e0, e1, e2, e3, e4, e5, e6, e7⟩ := hagree c
  rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
